-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S8192x1024 : Shape := ⟨2, ![8192, 1024]⟩
abbrev S4x1024x1024 : Shape := ⟨3, ![4, 1024, 1024]⟩
abbrev S4x1024 : Shape := ⟨2, ![4, 1024]⟩
abbrev S1024x4x1024 : Shape := ⟨3, ![1024, 4, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 19
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S1024x4x1024, .f32⟩
  | .hbm, ⟨8, _⟩ => ⟨S1024x4096, .f32⟩
  | .hbm, ⟨9, _⟩ => ⟨S1024x4096, .bf16⟩
  | .hbm, ⟨10, _⟩ => ⟨S1024x4x1024, .f32⟩
  | .hbm, ⟨11, _⟩ => ⟨S1024x4096, .f32⟩
  | .hbm, ⟨12, _⟩ => ⟨S1024x4096, .bf16⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S1x4096, .f32⟩
  | .hbm, ⟨17, _⟩ => ⟨S8192x1024, .f32⟩
  | .hbm, ⟨18, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_v0_0 : Ref sig .tc := ⟨.hbm, 17, rfl⟩
abbrev main_v0_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4x1024x1024_S1024x4x1024_2_0_1 : S4x1024x1024.Transposes [2, 0, 1] S1024x4x1024
  shapeCasts_S1024x4x1024_S1024x4096 : S1024x4x1024.ShapeCasts S1024x4096
  bitsLt_bf16_f32 : FTy.bits .bf16 < FTy.bits .f32
  shapeCasts_S4x1024_S4096 : S4x1024.ShapeCasts S4096
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_3072_S256x1024 : S256x4096.Slices ![0, 3072] S256x1024
  slices_S256x4096_o0_1024_S256x1024 : S256x4096.Slices ![0, 1024] S256x1024
  slices_S256x4096_o0_2048_S256x1024 : S256x4096.Slices ![0, 2048] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4x1024x1024 : Shape := ⟨3, ![4, 1024, 1024]⟩
abbrev S4x1024 : Shape := ⟨2, ![4, 1024]⟩
abbrev S4x1024x8192 : Shape := ⟨3, ![4, 1024, 8192]⟩
abbrev S4x8192x1024 : Shape := ⟨3, ![4, 8192, 1024]⟩
abbrev S4x1x1024 : Shape := ⟨3, ![4, 1, 1024]⟩
abbrev S1x8192x1024 : Shape := ⟨3, ![1, 8192, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x8192, .f32⟩
  | .hbm, ⟨8, _⟩ => ⟨S4x8192x1024, .f32⟩
  | .hbm, ⟨9, _⟩ => ⟨S4x1x1024, .f32⟩
  | .hbm, ⟨10, _⟩ => ⟨S4x8192x1024, .f32⟩
  | .hbm, ⟨11, _⟩ => ⟨S4x8192x1024, .f32⟩
  | .hbm, ⟨12, _⟩ => ⟨S4x1024x8192, .f32⟩
  | .hbm, ⟨13, _⟩ => ⟨S4x8192x1024, .f32⟩
  | .hbm, ⟨14, _⟩ => ⟨S4x1x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S1x8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S1x8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S1x8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S1x8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x1024x8192_S4x8192x1024_0_2_1 : S4x1024x8192.Transposes [0, 2, 1] S4x8192x1024
  bcast_S4x1024_S4x1x1024_0_2 : S4x1024.BroadcastsInDim S4x1x1024 (![0, 2] : Fin 2 → Fin S4x1x1024.rank)
  bcast_S4x1x1024_S4x8192x1024_0_1_2 : S4x1x1024.BroadcastsInDim S4x8192x1024 (![0, 1, 2] : Fin 3 → Fin S4x8192x1024.rank)
  slices_S4x8192x1024_S1x8192x1024_0_0_0 : S4x8192x1024.Slices ![0, 0, 0] S1x8192x1024
  shapeCasts_S1x8192x1024_S8192x1024 : S1x8192x1024.ShapeCasts S8192x1024
  bcast_S_S8192x1024 : S_.BroadcastsInDim S8192x1024 (![] : Fin 0 → Fin S8192x1024.rank)
  slices_S4x8192x1024_S1x8192x1024_1_0_0 : S4x8192x1024.Slices ![1, 0, 0] S1x8192x1024
  slices_S4x8192x1024_S1x8192x1024_2_0_0 : S4x8192x1024.Slices ![2, 0, 0] S1x8192x1024
  slices_S4x8192x1024_S1x8192x1024_3_0_0 : S4x8192x1024.Slices ![3, 0, 0] S1x8192x1024
  dot_S4x1024x1024_S8192x1024_S4x1024x8192_2_1_01_0_n_n_wf : DotDims.WF S4x1024x1024 S8192x1024 S4x1024x8192 [2] [1] [0, 1] [0] [] []

variable [Facts₀]

def dot_S4x1024x1024_S8192x1024_S4x1024x8192_2_1_01_0_n_n : DotDims S4x1024x1024 S8192x1024 S4x1024x8192 where
  lhsContracting := [2]
  rhsContracting := [1]
  lhsNonContracting := [0, 1]
  rhsNonContracting := [0]
  lhsBatch := []
  rhsBatch := []
  wf := dot_S4x1024x1024_S8192x1024_S4x1024x8192_2_1_01_0_n_n_wf

class Facts : Prop extends Facts₀ where

variable [Facts]
-- ==== Proof.CellSpec.lean ====
/-
  A gated recurrent cell over a batch of 8192 rows, 1024 inputs, 1024 hidden units and four gates, as functions of
  its seven argument arrays on the extended reals.

  For gate g, batch row b and hidden unit j the pre-activation is

      a(g, b, j) = (Σ_k x(b, k) · W(g, j, k)  +  Σ_k h(b, k) · U(g, j, k))  +  (bW(g, j) + bU(g, j)).

  The new cell state and the new hidden state are

      c'(b, j) = σ(a(1, b, j)) · c(b, j)  +  σ(a(0, b, j)) · tanh(a(3, b, j)),
      h'(b, j) = σ(a(2, b, j)) · tanh(c'(b, j)),

  with σ the logistic function  σ(y) = 1 / (1 + e^(-y))  (total on the extended reals: 0 at -∞, 1 at +∞).

  One program adds the two products first and the two biases first; the other adds each bias to its own product
  and multiplies with the weight on the left. The two groupings agree by commutativity and associativity of + and
  commutativity of · on the extended reals, which hold at the infinities too: no entry has to be finite.
-/
import Idealize.ShloMosaic.Lib.ValueIdx
import Idealize.ShloMosaic.Lib.IdealHost
import Idealize.ShloMosaic.PureOps.Ideal.Laws

noncomputable section

open scoped BigOperators

namespace Cert.GatedCell

open Idealize.ShloMosaic Idealize.ShloMosaic.ValueIdx

/-- A [8192, 1024] array (the inputs x, the hidden state h, the cell state c, and both results). -/
abbrev Rows := FVec Ideal ⟨2, ![8192, 1024]⟩ .f32
/-- A [4, 1024, 1024] stack of the four gates' weight matrices, entry (gate, hidden unit, input). -/
abbrev Weights := FVec Ideal ⟨3, ![4, 1024, 1024]⟩ .f32
/-- A [4, 1024] stack of the four gates' bias vectors. -/
abbrev Biases := FVec Ideal ⟨2, ![4, 1024]⟩ .f32

/-- The pre-activation of gate `g` at batch row `b` and hidden unit `j`: both products added, then both biases. -/
def gate (x h : Rows) (W : Weights) (bW : Biases) (U : Weights) (bU : Biases) (g : Fin 4) (b : Fin 8192) (j : Fin 1024) : EReal :=
  ((∑ k : Fin 1024, x (ix2 b k) * W (ix3 g j k)) + (∑ k : Fin 1024, h (ix2 b k) * U (ix3 g j k)))
    + (bW (ix2 g j) + bU (ix2 g j))

/-- The other grouping — each bias added to its own product, the weight the left factor — is the same number:
    (p + s) + (q + t) = (p + q) + (s + t), and each product commutes. -/
theorem gate_biased_products (x h : Rows) (W : Weights) (bW : Biases) (U : Weights) (bU : Biases)
    (g : Fin 4) (b : Fin 8192) (j : Fin 1024) :
    ((∑ k : Fin 1024, W (ix3 g j k) * x (ix2 b k)) + bW (ix2 g j))
        + ((∑ k : Fin 1024, U (ix3 g j k) * h (ix2 b k)) + bU (ix2 g j))
      = gate x h W bW U bU g b j := by
  unfold gate
  rw [add_add_add_comm]
  have e1 : (∑ k : Fin 1024, W (ix3 g j k) * x (ix2 b k)) = ∑ k : Fin 1024, x (ix2 b k) * W (ix3 g j k) :=
    Finset.sum_congr rfl fun k _ => mul_comm _ _
  have e2 : (∑ k : Fin 1024, U (ix3 g j k) * h (ix2 b k)) = ∑ k : Fin 1024, h (ix2 b k) * U (ix3 g j k) :=
    Finset.sum_congr rfl fun k _ => mul_comm _ _
  rw [e1, e2]

/-- The new cell state: the forget gate times the old state plus the input gate times the candidate. -/
def cellNext (x h c : Rows) (W : Weights) (bW : Biases) (U : Weights) (bU : Biases) : Rows := fun i =>
  Ideal.logistic (gate x h W bW U bU 1 (i 0) (i 1)) * c i
    + Ideal.logistic (gate x h W bW U bU 0 (i 0) (i 1)) * Ideal.tanh (gate x h W bW U bU 3 (i 0) (i 1))

/-- The new hidden state: the output gate times tanh of the new cell state. -/
def hiddenNext (x h c : Rows) (W : Weights) (bW : Biases) (U : Weights) (bU : Biases) : Rows := fun i =>
  Ideal.logistic (gate x h W bW U bU 2 (i 0) (i 1)) * Ideal.tanh (cellNext x h c W bW U bU i)

/-- The logistic function spelt with a quotient, as a host program spells it: 1 / (1 + e^(-y)) with the f32 word of
    one for both ones. -/
theorem logistic_quotient (y : EReal) :
    FloatOps.hostDivf (F := Ideal) (φ := .f32) (FloatOps.ofBits .f32 0x3F800000#32)
        (FloatOps.addf (FloatOps.ofBits .f32 0x3F800000#32) (FloatOps.hostUnary .exp (FloatOps.hostNegf y)))
      = Ideal.logistic y := by
  simp only [Ideal.hostDivf_def, Ideal.addf_def, Ideal.hostUnary_exp_def, Ideal.hostNegf_def, Ideal.negf_def,
    Ideal.ofBits_def, Ideal.ofBits_one_f32]
  rfl

end Cert.GatedCell

end
-- ==== Proof.ReferenceCell.lean ====
/-
  The reference program's two results are the cell's next states.

  The reference forms, for all four gates at once, the products W · x and U · h as [4, 1024, 8192] arrays, swaps their
  last two axes, adds each bias (broadcast over the batch) to its own product and adds the two sums; it then cuts the
  [4, 8192, 1024] array into the four gates, applies 1 / (1 + e^(-a)) to gates 0, 1, 2 and tanh to gate 3, and
  combines them with the old cell state. Read one operation at a time at an index (b, j), every stage is the
  specification's: the stacked array at (g, b, j) is the pre-activation in the other grouping, each quotient is the
  logistic function.
-/
import proofs.«119790_j24601572671658_2_alg».proof.Proof.Gen.ReferenceIdeal.Read
import proofs.«119790_j24601572671658_2_alg».proof.Proof.CellSpec

noncomputable section

open scoped BigOperators

namespace Cert.ReferenceIdeal.CellValue

open Cert.ReferenceIdeal Cert.ReferenceIdeal.Read Idealize.ShloMosaic Idealize.ShloMosaic.ValueIdx Cert.GatedCell

variable (x0 x1 x2 : (⟨S8192x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal))

/-- The stacked pre-activations at (g, b, j): (Σ_k W(g,j,k)·x(b,k) + bW(g,j)) + (Σ_k U(g,j,k)·h(b,k) + bU(g,j)), which is
    the specification's pre-activation. -/
theorem stacked_apply (g : Fin 4) (b : Fin 8192) (j : Fin 1024) :
    val_main_v10 (F := Ideal) x0 x1 x3 x4 x5 x6 (ix3 g b j) = gate x0 x1 x3 x4 x5 x6 g b j := by
  rw [val_main_v10_apply, val_main_v4_apply, val_main_v9_apply, val_main_v1_apply, val_main_v0_apply,
    val_main_v3_apply, val_main_v2_apply, val_main_v6_apply, val_main_v5_apply, val_main_v8_apply, val_main_v7_apply]
  have eW : ∀ k : Fin 1024, lidx_main_v0 (idx_main_v1 (ix3 g b j)) k = ix3 g j k := fun k => funext fun a => by
    match a with
    | ⟨0, _⟩ => rfl
    | ⟨1, _⟩ => rfl
    | ⟨2, _⟩ => rfl
  have ex : ∀ k : Fin 1024, ridx_main_v0 (idx_main_v1 (ix3 g b j)) k = ix2 b k := fun k => funext fun a => by
    match a with
    | ⟨0, _⟩ => rfl
    | ⟨1, _⟩ => rfl
  have eU : ∀ k : Fin 1024, lidx_main_v5 (idx_main_v6 (ix3 g b j)) k = ix3 g j k := fun k => funext fun a => by
    match a with
    | ⟨0, _⟩ => rfl
    | ⟨1, _⟩ => rfl
    | ⟨2, _⟩ => rfl
  have eh : ∀ k : Fin 1024, ridx_main_v5 (idx_main_v6 (ix3 g b j)) k = ix2 b k := fun k => funext fun a => by
    match a with
    | ⟨0, _⟩ => rfl
    | ⟨1, _⟩ => rfl
  have ebW : idx_main_v2 (idx_main_v3 (ix3 g b j)) = ix2 g j := funext fun a => by
    match a with
    | ⟨0, _⟩ => rfl
    | ⟨1, _⟩ => rfl
  have ebU : idx_main_v7 (idx_main_v8 (ix3 g b j)) = ix2 g j := funext fun a => by
    match a with
    | ⟨0, _⟩ => rfl
    | ⟨1, _⟩ => rfl
  simp only [eW, ex, eU, eh, ebW, ebU]
  exact gate_biased_products x0 x1 x3 x4 x5 x6 g b j

/-- Slice 0 of the stacked pre-activations, reshaped to [8192, 1024], at (b, j): gate 0's pre-activation there. -/
theorem gate0_apply (b : Fin 8192) (j : Fin 1024) :
    val_main_v12 (F := Ideal) x0 x1 x3 x4 x5 x6 (ix2 b j) = gate x0 x1 x3 x4 x5 x6 0 b j := by
  rw [val_main_v12_apply, val_main_v11_apply]
  have hb := b.isLt
  have hj := j.isLt
  have e : idx_main_v11 (idx_main_v12 (ix2 b j)) = ix3 0 b j := funext fun a => Fin.ext (by
    match a with
    | ⟨0, _⟩ => rfl
    | ⟨1, _⟩ => show (b.val * 1024 + j.val) / 1024 % 8192 = b.val; omega
    | ⟨2, _⟩ => show (b.val * 1024 + j.val) % 1024 = j.val; omega)
  rw [e]
  exact stacked_apply x0 x1 x3 x4 x5 x6 0 b j

/-- Slice 1 of the stacked pre-activations, reshaped to [8192, 1024], at (b, j): gate 1's pre-activation there. -/
theorem gate1_apply (b : Fin 8192) (j : Fin 1024) :
    val_main_v20 (F := Ideal) x0 x1 x3 x4 x5 x6 (ix2 b j) = gate x0 x1 x3 x4 x5 x6 1 b j := by
  rw [val_main_v20_apply, val_main_v19_apply]
  have hb := b.isLt
  have hj := j.isLt
  have e : idx_main_v19 (idx_main_v20 (ix2 b j)) = ix3 1 b j := funext fun a => Fin.ext (by
    match a with
    | ⟨0, _⟩ => rfl
    | ⟨1, _⟩ => show (b.val * 1024 + j.val) / 1024 % 8192 = b.val; omega
    | ⟨2, _⟩ => show (b.val * 1024 + j.val) % 1024 = j.val; omega)
  rw [e]
  exact stacked_apply x0 x1 x3 x4 x5 x6 1 b j

/-- Slice 2 of the stacked pre-activations, reshaped to [8192, 1024], at (b, j): gate 2's pre-activation there. -/
theorem gate2_apply (b : Fin 8192) (j : Fin 1024) :
    val_main_v28 (F := Ideal) x0 x1 x3 x4 x5 x6 (ix2 b j) = gate x0 x1 x3 x4 x5 x6 2 b j := by
  rw [val_main_v28_apply, val_main_v27_apply]
  have hb := b.isLt
  have hj := j.isLt
  have e : idx_main_v27 (idx_main_v28 (ix2 b j)) = ix3 2 b j := funext fun a => Fin.ext (by
    match a with
    | ⟨0, _⟩ => rfl
    | ⟨1, _⟩ => show (b.val * 1024 + j.val) / 1024 % 8192 = b.val; omega
    | ⟨2, _⟩ => show (b.val * 1024 + j.val) % 1024 = j.val; omega)
  rw [e]
  exact stacked_apply x0 x1 x3 x4 x5 x6 2 b j

/-- Slice 3 of the stacked pre-activations, reshaped to [8192, 1024], at (b, j): gate 3's pre-activation there. -/
theorem gate3_apply (b : Fin 8192) (j : Fin 1024) :
    val_main_v36 (F := Ideal) x0 x1 x3 x4 x5 x6 (ix2 b j) = gate x0 x1 x3 x4 x5 x6 3 b j := by
  rw [val_main_v36_apply, val_main_v35_apply]
  have hb := b.isLt
  have hj := j.isLt
  have e : idx_main_v35 (idx_main_v36 (ix2 b j)) = ix3 3 b j := funext fun a => Fin.ext (by
    match a with
    | ⟨0, _⟩ => rfl
    | ⟨1, _⟩ => show (b.val * 1024 + j.val) / 1024 % 8192 = b.val; omega
    | ⟨2, _⟩ => show (b.val * 1024 + j.val) % 1024 = j.val; omega)
  rw [e]
  exact stacked_apply x0 x1 x3 x4 x5 x6 3 b j

/-- The reference's quotient 1 / (1 + e^(-a)) on gate 0's slice is the logistic function of it. -/
theorem sigma0_apply (i : S8192x1024.Idx) :
    val_main_v18 (F := Ideal) x0 x1 x3 x4 x5 x6 i = Ideal.logistic (val_main_v12 (F := Ideal) x0 x1 x3 x4 x5 x6 i) := by
  rw [val_main_v18_apply, val_main_v17_apply, val_main_cst_0_apply, val_main_v16_apply, val_main_v15_apply, val_main_cst_apply, val_main_v14_apply, val_main_v13_apply]
  exact logistic_quotient _

/-- The reference's quotient 1 / (1 + e^(-a)) on gate 1's slice is the logistic function of it. -/
theorem sigma1_apply (i : S8192x1024.Idx) :
    val_main_v26 (F := Ideal) x0 x1 x3 x4 x5 x6 i = Ideal.logistic (val_main_v20 (F := Ideal) x0 x1 x3 x4 x5 x6 i) := by
  rw [val_main_v26_apply, val_main_v25_apply, val_main_cst_2_apply, val_main_v24_apply, val_main_v23_apply, val_main_cst_1_apply, val_main_v22_apply, val_main_v21_apply]
  exact logistic_quotient _

/-- The reference's quotient 1 / (1 + e^(-a)) on gate 2's slice is the logistic function of it. -/
theorem sigma2_apply (i : S8192x1024.Idx) :
    val_main_v34 (F := Ideal) x0 x1 x3 x4 x5 x6 i = Ideal.logistic (val_main_v28 (F := Ideal) x0 x1 x3 x4 x5 x6 i) := by
  rw [val_main_v34_apply, val_main_v33_apply, val_main_cst_4_apply, val_main_v32_apply, val_main_v31_apply, val_main_cst_3_apply, val_main_v30_apply, val_main_v29_apply]
  exact logistic_quotient _

/-- The reference's third result is the next cell state. -/
theorem cell_eq : val_main_v40 (F := Ideal) x0 x1 x2 x3 x4 x5 x6 = cellNext x0 x1 x2 x3 x4 x5 x6 := by
  funext i
  obtain ⟨b, j, rfl⟩ : ∃ (b : Fin 8192) (j : Fin 1024), i = ix2 b j := ⟨i 0, i 1, eq_ix2 i⟩
  rw [val_main_v40_apply, val_main_v38_apply, val_main_v39_apply, sigma1_apply, sigma0_apply, val_main_v37_apply,
    gate1_apply, gate0_apply, gate3_apply]
  rfl

/-- The reference's first (and second) result is the next hidden state. -/
theorem hidden_eq : val_main_v42 (F := Ideal) x0 x1 x2 x3 x4 x5 x6 = hiddenNext x0 x1 x2 x3 x4 x5 x6 := by
  funext i
  obtain ⟨b, j, rfl⟩ : ∃ (b : Fin 8192) (j : Fin 1024), i = ix2 b j := ⟨i 0, i 1, eq_ix2 i⟩
  rw [val_main_v42_apply, val_main_v41_apply, sigma2_apply, gate2_apply, cell_eq]
  rfl

end Cert.ReferenceIdeal.CellValue

end
-- ==== Proof.PackedOperands.lean ====
/-
  The three operands the host prepares before the kernel is launched, as functions of the argument arrays.

  * The packed input weights: W, of shape [4, 1024, 1024] with entry (gate, hidden unit, input), has its input axis
    moved to the front ([1024, 4, 1024]) and its gate and hidden-unit axes merged ([1024, 4096]); the cast to bf16 is the
    identity on the extended reals. So entry (k, g·1024 + j) of the packed matrix is W(g, j, k).
  * The packed recurrent weights: the same for U.
  * The bias row: bW and bU, each [4, 1024], flattened to [4096], added, and given a leading unit axis ([1, 4096]).
    So entry (0, g·1024 + j) of the row is bW(g, j) + bU(g, j).
-/
import proofs.«119790_j24601572671658_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Packed

open Cert.KernelIdeal Cert.KernelIdeal.Gen Idealize.ShloMosaic Idealize.ShloMosaic.ValueIdx

/-- A [4, 1024, 1024] weight stack packed to [1024, 4096]: input axis first, then gate and hidden unit merged. -/
def pack (W : FVec Ideal S4x1024x1024 .f32) : FVec Ideal S1024x4096 .bf16 :=
  truncf (F := Ideal) .bf16 (shapeCast S1024x4096 (transpose S1024x4x1024 [2, 0, 1] W
    transposes_S4x1024x1024_S1024x4x1024_2_0_1) shapeCasts_S1024x4x1024_S1024x4096) bitsLt_bf16_f32

/-- The two [4, 1024] bias stacks flattened, added and laid out as one [1, 4096] row. -/
def biasRow (bW bU : FVec Ideal S4x1024 .f32) : FVec Ideal S1x4096 .f32 :=
  shapeCast S1x4096 (addf (F := Ideal) (φ := .f32)
    (shapeCast S4096 bW shapeCasts_S4x1024_S4096) (shapeCast S4096 bU shapeCasts_S4x1024_S4096))
    shapeCasts_S4096_S1x4096

/-- Entry (k, n) of a packed weight matrix, for n = g·1024 + j, is the stack's entry (g, j, k). -/
theorem pack_apply (W : FVec Ideal S4x1024x1024 .f32) (k : Fin 1024) (g : Fin 4) (j : Fin 1024) (n : Fin 4096)
    (hn : n.val = g.val * 1024 + j.val) : pack W (ix2 k n) = W (ix3 g j k) := by
  have hk := k.isLt
  have hg := g.isLt
  have hj := j.isLt
  unfold pack
  show shapeCast S1024x4096 (transpose S1024x4x1024 [2, 0, 1] W transposes_S4x1024x1024_S1024x4x1024_2_0_1)
    shapeCasts_S1024x4x1024_S1024x4096 (ix2 k n) = _
  refine (shapeCast_apply _ shapeCasts_S1024x4x1024_S1024x4096 (ix2 k n) (ix3 k g j) ?_).trans ?_
  · rw [Shape.rowMajor_val_three, Shape.rowMajor_val_two]
    show (k.val * 4 + g.val) * 1024 + j.val = k.val * 4096 + n.val
    omega
  · exact transpose_apply [2, 0, 1] W transposes_S4x1024x1024_S1024x4x1024_2_0_1 (ix3 k g j) (ix3 g j k) (fun b =>
      match b with
      | ⟨0, _⟩ => rfl
      | ⟨1, _⟩ => rfl
      | ⟨2, _⟩ => rfl)

/-- Flat position n of a [4096] vector is position (0, n) of the [1, 4096] row. -/
theorem flat_eq_row (n : Fin 4096) : (S4096.rowMajor (ix1 n)).val = (S1x4096.rowMajor (ix2 0 n)).val := by
  rw [Shape.rowMajor_val_one, Shape.rowMajor_val_two]
  show n.val = 0 * 4096 + n.val
  omega

/-- Position (g, j) of a [4, 1024] stack is flat position g·1024 + j. -/
theorem stack_eq_flat (g : Fin 4) (j : Fin 1024) (n : Fin 4096) (hn : n.val = g.val * 1024 + j.val) :
    (S4x1024.rowMajor (ix2 g j)).val = (S4096.rowMajor (ix1 n)).val := by
  rw [Shape.rowMajor_val_one, Shape.rowMajor_val_two]
  show g.val * 1024 + j.val = n.val
  omega

/-- Entry (0, n) of the bias row, for n = g·1024 + j, is bW(g, j) + bU(g, j). -/
theorem biasRow_apply (bW bU : FVec Ideal S4x1024 .f32) (g : Fin 4) (j : Fin 1024) (n : Fin 4096)
    (hn : n.val = g.val * 1024 + j.val) : biasRow bW bU (ix2 0 n) = bW (ix2 g j) + bU (ix2 g j) := by
  unfold biasRow
  refine (shapeCast_apply _ shapeCasts_S4096_S1x4096 (ix2 0 n) (ix1 n) (flat_eq_row n)).trans ?_
  have e : ∀ b : FVec Ideal S4x1024 .f32, shapeCast S4096 b shapeCasts_S4x1024_S4096 (ix1 n) = b (ix2 g j) := fun b =>
    shapeCast_apply b shapeCasts_S4x1024_S4096 (ix1 n) (ix2 g j) (stack_eq_flat g j n hn)
  show shapeCast S4096 bW shapeCasts_S4x1024_S4096 (ix1 n) + shapeCast S4096 bU shapeCasts_S4x1024_S4096 (ix1 n) = _
  rw [e bW, e bU]

open Idealize.ShloMosaic.TcCoe Idealize.SL.Sem Idealize.ShloMosaic.StableHlo

variable (m : (ℓ : Loc nD τ sig) → Buf (Elt Ideal) ℓ)

/-- When the kernel is launched, its fourth operand holds the packed input weights; -/
theorem inputWeights_eq (c : Dev nD) :
    (V m c main_call0_v2 : S1024x4096.Idx → EReal) = pack (m ((c : Thread nD τ).loc main_arg3)) := by
  unfold pack
  dsimp only [Gen.V, Gen.hostOps0]
  after_results
  rfl

/-- its fifth the packed recurrent weights; -/
theorem recurrentWeights_eq (c : Dev nD) :
    (V m c main_call0_v5 : S1024x4096.Idx → EReal) = pack (m ((c : Thread nD τ).loc main_arg5)) := by
  unfold pack
  dsimp only [Gen.V, Gen.hostOps0]
  after_results
  rfl

/-- its sixth the bias row. -/
theorem biasRow_eq (c : Dev nD) :
    (V m c main_call0_v9 : S1x4096.Idx → EReal)
      = biasRow (m ((c : Thread nD τ).loc main_arg4)) (m ((c : Thread nD τ).loc main_arg6)) := by
  unfold biasRow
  dsimp only [Gen.V, Gen.hostOps0]
  after_results
  rfl

end Cert.KernelIdeal.Packed

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.KernelGates.lean ====
/-
  The four gates' pre-activations as the kernel body computes them at one grid point.

  The body casts its x block and its h block (each [256, 1024]) to bf16 — the identity on the extended reals —,
  multiplies each by a [1024, 4096] matrix into a zero accumulator, adds the two products and then a [1, 4096] bias
  row broadcast over the 256 rows. Entry (r, n) of the resulting [256, 4096] array is therefore

      (Σ_k xb(r, k) · Wt(k, n)  +  Σ_k hb(r, k) · Ut(k, n))  +  bias(0, n).
-/
import proofs.«119790_j24601572671658_2_alg».proof.Proof.Gen.KernelIdeal.Skeleton
import proofs.«119790_j24601572671658_2_alg».proof.Proof.LibPlainDot
import Idealize.ShloMosaic.Lib.Pipeline.Value
import Idealize.ShloMosaic.Lib.ValueIdx

noncomputable section

open scoped BigOperators

namespace Cert.KernelIdeal.StackedGates

open Cert.KernelIdeal Cert.KernelIdeal.Gen Idealize.ShloMosaic Idealize.ShloMosaic.ValueIdx

/-- The printed dimension numbers of both products are those of a plain [256, 1024] · [1024, 4096] product. -/
theorem dims_plain : dot_S256x1024_S1024x4096_S256x4096_1_0_0_1_n_n = DotDims.plain 256 1024 4096 :=
  Cert.Lib.PlainDot.eq_plain _ rfl rfl rfl rfl rfl rfl

/-- The bias row broadcast over the rows, read at (r, n): the row's entry n. -/
theorem bias_row_apply (P4 : FVec Ideal S1x4096 .f32) (j : S256x4096.Idx) :
    broadcastTo S256x4096 (shapeCast S1x4096 P4 shapeCasts_S1x4096_S1x4096) broadcasts_S1x4096_S256x4096 j
      = P4 (ix2 0 (j 1)) := by
  rw [shapeCast_self]
  exact broadcastTo_apply P4 broadcasts_S1x4096_S256x4096 j (ix2 0 (j 1)) (fun a => by
    match a with
    | ⟨0, _⟩ => show (0 : Nat) = if (1 : Nat) = 1 then 0 else _; rw [if_pos rfl]
    | ⟨1, _⟩ => show (j 1).val = if (4096 : Nat) = 1 then 0 else (j 1).val; rw [if_neg (by decide)])

/-- One of the two products at (r, n): the sum over k of the block's (r, k) times the matrix's (k, n). -/
theorem product_apply (P : FVec Ideal S256x1024 .f32) (M : FVec Ideal S1024x4096 .bf16) (j : S256x4096.Idx) :
    matmul dot_S256x1024_S1024x4096_S256x4096_1_0_0_1_n_n none (truncf .bf16 P bitsLt_bf16_f32)
        (shapeCast S1024x4096 M shapeCasts_S1024x4096_S1024x4096) (constant S256x4096 .f32 0x00000000#32) j
      = ∑ k : Fin 1024, P (ix2 (j 0) k) * M (ix2 k (j 1)) := by
  rw [shapeCast_self, dims_plain]
  exact Cert.Lib.PlainDot.matmul_zero_plain_apply none (truncf .bf16 P bitsLt_bf16_f32) M j

/-- The stacked pre-activations at (r, n). -/
theorem stacked_apply (P0 P1 : Vec Ideal S256x1024 .f32) (P2 P3 : Vec Ideal S1024x4096 .bf16) (P4 : Vec Ideal S1x4096 .f32)
    (j : S256x4096.Idx) :
    k0_pay1 P0 P1 P2 P3 P4 j
      = ((∑ k : Fin 1024, P0 (ix2 (j 0) k) * P2 (ix2 k (j 1))) + (∑ k : Fin 1024, P1 (ix2 (j 0) k) * P3 (ix2 k (j 1))))
          + P4 (ix2 0 (j 1)) := by
  unfold k0_pay1
  show ((matmul (F := Ideal) dot_S256x1024_S1024x4096_S256x4096_1_0_0_1_n_n none (truncf .bf16 (P0 : FVec Ideal S256x1024 .f32) bitsLt_bf16_f32)
          (shapeCast S1024x4096 (P2 : FVec Ideal S1024x4096 .bf16) shapeCasts_S1024x4096_S1024x4096) (constant S256x4096 .f32 0x00000000#32) j
        + matmul (F := Ideal) dot_S256x1024_S1024x4096_S256x4096_1_0_0_1_n_n none (truncf .bf16 (P1 : FVec Ideal S256x1024 .f32) bitsLt_bf16_f32)
          (shapeCast S1024x4096 (P3 : FVec Ideal S1024x4096 .bf16) shapeCasts_S1024x4096_S1024x4096) (constant S256x4096 .f32 0x00000000#32) j)
      + broadcastTo S256x4096 (shapeCast S1x4096 (P4 : FVec Ideal S1x4096 .f32) shapeCasts_S1x4096_S1x4096) broadcasts_S1x4096_S256x4096 j : EReal) = _
  rw [product_apply P0 P2 j, product_apply P1 P3 j, bias_row_apply P4 j]

end Cert.KernelIdeal.StackedGates

end
-- ==== Proof.PointValue.lean ====
/-
  What one grid point leaves in its two output blocks.

  At grid point t the kernel body holds rows 256·t … 256·t + 255 of x, h and c, the whole packed weight matrices and
  the whole bias row. Column n = g·1024 + j of its [256, 4096] pre-activation array is gate g, hidden unit j; so at
  (r, n) the array holds the specification's pre-activation of gate g at batch row 256·t + r and unit j. The body cuts
  the four gates out of that array (column offsets 0, 1024, 2048, 3072), and the two blocks it stores are rows
  256·t … 256·t + 255 of the next cell state and of the next hidden state.

  Everything is stated for arbitrary loaded blocks, with hypotheses saying which entry of which argument array each
  entry of a block is.
-/
import proofs.«119790_j24601572671658_2_alg».proof.Proof.Gen.KernelIdeal.Value
import proofs.«119790_j24601572671658_2_alg».proof.Proof.KernelGates
import proofs.«119790_j24601572671658_2_alg».proof.Proof.CellSpec

noncomputable section

open scoped BigOperators

namespace Cert.KernelIdeal.PointValue

open Cert.KernelIdeal Cert.KernelIdeal.Gen Cert.KernelIdeal.Value Idealize.ShloMosaic Idealize.ShloMosaic.ValueIdx
open Cert.GatedCell

/-- Batch row 256·t + r: row r of the block at grid point t. -/
abbrev row (t : Nat) (ht : t < 32) (r : Fin 256) : Fin 8192 := ⟨t * 256 + r.val, by have := r.isLt; omega⟩

/-- The body's pre-activation array at (r, g·1024 + j) is gate g's pre-activation at batch row 256·t + r, unit j. -/
theorem stacked_eq_gate (x h c : Rows) (W : Weights) (bW : Biases) (U : Weights) (bU : Biases)
    (P0 P1 P5 : Vec Ideal S256x1024 .f32) (P2 P3 : Vec Ideal S1024x4096 .bf16) (P4 : Vec Ideal S1x4096 .f32)
    (t : Nat) (ht : t < 32)
    (h0 : ∀ (r : Fin 256) (k : Fin 1024), P0 (ix2 r k) = x (ix2 (row t ht r) k))
    (h1 : ∀ (r : Fin 256) (k : Fin 1024), P1 (ix2 r k) = h (ix2 (row t ht r) k))
    (h5 : ∀ (r : Fin 256) (j : Fin 1024), P5 (ix2 r j) = c (ix2 (row t ht r) j))
    (h2 : ∀ (k : Fin 1024) (g : Fin 4) (j : Fin 1024) (n : Fin 4096), n.val = g.val * 1024 + j.val → P2 (ix2 k n) = W (ix3 g j k))
    (h3 : ∀ (k : Fin 1024) (g : Fin 4) (j : Fin 1024) (n : Fin 4096), n.val = g.val * 1024 + j.val → P3 (ix2 k n) = U (ix3 g j k))
    (h4 : ∀ (g : Fin 4) (j : Fin 1024) (n : Fin 4096), n.val = g.val * 1024 + j.val → P4 (ix2 0 n) = bW (ix2 g j) + bU (ix2 g j))
    (g : Fin 4) (r : Fin 256) (j : Fin 1024) (i : S256x4096.Idx) (hi0 : (i 0).val = r.val)
    (hi1 : (i 1).val = g.val * 1024 + j.val) :
    k0_pay1 P0 P1 P2 P3 P4 i = gate x h W bW U bU g (row t ht r) j := by
  rw [Cert.KernelIdeal.StackedGates.stacked_apply]
  unfold gate
  have er : i 0 = r := Fin.ext hi0
  have e1 : (∑ k : Fin 1024, P0 (ix2 (i 0) k) * P2 (ix2 k (i 1))) = ∑ k : Fin 1024, x (ix2 (row t ht r) k) * W (ix3 g j k) :=
    Finset.sum_congr rfl fun k _ => by rw [er, h0 r k, h2 k g j (i 1) hi1]
  have e2 : (∑ k : Fin 1024, P1 (ix2 (i 0) k) * P3 (ix2 k (i 1))) = ∑ k : Fin 1024, h (ix2 (row t ht r) k) * U (ix3 g j k) :=
    Finset.sum_congr rfl fun k _ => by rw [er, h1 r k, h3 k g j (i 1) hi1]
  rw [e1, e2, h4 g j (i 1) hi1]

/-- The block of the second output the point stores: rows 256·t … of the next cell state. -/
theorem cell_block (x h c : Rows) (W : Weights) (bW : Biases) (U : Weights) (bU : Biases)
    (P0 P1 P5 : Vec Ideal S256x1024 .f32) (P2 P3 : Vec Ideal S1024x4096 .bf16) (P4 : Vec Ideal S1x4096 .f32)
    (t : Nat) (ht : t < 32)
    (h0 : ∀ (r : Fin 256) (k : Fin 1024), P0 (ix2 r k) = x (ix2 (row t ht r) k))
    (h1 : ∀ (r : Fin 256) (k : Fin 1024), P1 (ix2 r k) = h (ix2 (row t ht r) k))
    (h5 : ∀ (r : Fin 256) (j : Fin 1024), P5 (ix2 r j) = c (ix2 (row t ht r) j))
    (h2 : ∀ (k : Fin 1024) (g : Fin 4) (j : Fin 1024) (n : Fin 4096), n.val = g.val * 1024 + j.val → P2 (ix2 k n) = W (ix3 g j k))
    (h3 : ∀ (k : Fin 1024) (g : Fin 4) (j : Fin 1024) (n : Fin 4096), n.val = g.val * 1024 + j.val → P3 (ix2 k n) = U (ix3 g j k))
    (h4 : ∀ (g : Fin 4) (j : Fin 1024) (n : Fin 4096), n.val = g.val * 1024 + j.val → P4 (ix2 0 n) = bW (ix2 g j) + bU (ix2 g j))
    (r : Fin 256) (j : Fin 1024) :
    E7 P0 P1 P2 P3 P4 P5 (ix2 r j) = cellNext x h c W bW U bU (ix2 (row t ht r) j) := by
  have hj := j.isLt
  have e5 : ix7_1 (ix2 r j) = ix2 r j := funext fun a => by
    match a with
    | ⟨0, _⟩ => rfl
    | ⟨1, _⟩ => rfl
  show FloatOps.addf (FloatOps.mulf (FloatOps.logistic (k0_pay1 P0 P1 P2 P3 P4 (ix7_0 (ix2 r j)))) (P5 (ix7_1 (ix2 r j))))
      (FloatOps.mulf (FloatOps.logistic (k0_pay1 P0 P1 P2 P3 P4 (ix7_2 (ix2 r j))))
        (FloatOps.tanh (k0_pay1 P0 P1 P2 P3 P4 (ix7_3 (ix2 r j))))) = _
  rw [stacked_eq_gate x h c W bW U bU P0 P1 P5 P2 P3 P4 t ht h0 h1 h5 h2 h3 h4 1 r j (ix7_0 (ix2 r j)) rfl (by show j.val + 1024 = 1 * 1024 + j.val; omega),
    stacked_eq_gate x h c W bW U bU P0 P1 P5 P2 P3 P4 t ht h0 h1 h5 h2 h3 h4 0 r j (ix7_2 (ix2 r j)) rfl (by show j.val = 0 * 1024 + j.val; omega),
    stacked_eq_gate x h c W bW U bU P0 P1 P5 P2 P3 P4 t ht h0 h1 h5 h2 h3 h4 3 r j (ix7_3 (ix2 r j)) rfl (by show j.val + 3072 = 3 * 1024 + j.val; omega),
    e5, h5 r j]
  rfl

/-- The block of the first output the point stores: rows 256·t … of the next hidden state. -/
theorem hidden_block (x h c : Rows) (W : Weights) (bW : Biases) (U : Weights) (bU : Biases)
    (P0 P1 P5 : Vec Ideal S256x1024 .f32) (P2 P3 : Vec Ideal S1024x4096 .bf16) (P4 : Vec Ideal S1x4096 .f32)
    (t : Nat) (ht : t < 32)
    (h0 : ∀ (r : Fin 256) (k : Fin 1024), P0 (ix2 r k) = x (ix2 (row t ht r) k))
    (h1 : ∀ (r : Fin 256) (k : Fin 1024), P1 (ix2 r k) = h (ix2 (row t ht r) k))
    (h5 : ∀ (r : Fin 256) (j : Fin 1024), P5 (ix2 r j) = c (ix2 (row t ht r) j))
    (h2 : ∀ (k : Fin 1024) (g : Fin 4) (j : Fin 1024) (n : Fin 4096), n.val = g.val * 1024 + j.val → P2 (ix2 k n) = W (ix3 g j k))
    (h3 : ∀ (k : Fin 1024) (g : Fin 4) (j : Fin 1024) (n : Fin 4096), n.val = g.val * 1024 + j.val → P3 (ix2 k n) = U (ix3 g j k))
    (h4 : ∀ (g : Fin 4) (j : Fin 1024) (n : Fin 4096), n.val = g.val * 1024 + j.val → P4 (ix2 0 n) = bW (ix2 g j) + bU (ix2 g j))
    (r : Fin 256) (j : Fin 1024) :
    E6 P0 P1 P2 P3 P4 P5 (ix2 r j) = hiddenNext x h c W bW U bU (ix2 (row t ht r) j) := by
  have hj := j.isLt
  have e5 : ix6_2 (ix2 r j) = ix2 r j := funext fun a => by
    match a with
    | ⟨0, _⟩ => rfl
    | ⟨1, _⟩ => rfl
  show FloatOps.mulf (FloatOps.logistic (k0_pay1 P0 P1 P2 P3 P4 (ix6_0 (ix2 r j))))
      (FloatOps.tanh (FloatOps.addf
        (FloatOps.mulf (FloatOps.logistic (k0_pay1 P0 P1 P2 P3 P4 (ix6_1 (ix2 r j)))) (P5 (ix6_2 (ix2 r j))))
        (FloatOps.mulf (FloatOps.logistic (k0_pay1 P0 P1 P2 P3 P4 (ix6_3 (ix2 r j))))
          (FloatOps.tanh (k0_pay1 P0 P1 P2 P3 P4 (ix6_4 (ix2 r j))))))) = _
  rw [stacked_eq_gate x h c W bW U bU P0 P1 P5 P2 P3 P4 t ht h0 h1 h5 h2 h3 h4 2 r j (ix6_0 (ix2 r j)) rfl (by show j.val + 2048 = 2 * 1024 + j.val; omega),
    stacked_eq_gate x h c W bW U bU P0 P1 P5 P2 P3 P4 t ht h0 h1 h5 h2 h3 h4 1 r j (ix6_1 (ix2 r j)) rfl (by show j.val + 1024 = 1 * 1024 + j.val; omega),
    stacked_eq_gate x h c W bW U bU P0 P1 P5 P2 P3 P4 t ht h0 h1 h5 h2 h3 h4 0 r j (ix6_3 (ix2 r j)) rfl (by show j.val = 0 * 1024 + j.val; omega),
    stacked_eq_gate x h c W bW U bU P0 P1 P5 P2 P3 P4 t ht h0 h1 h5 h2 h3 h4 3 r j (ix6_4 (ix2 r j)) rfl (by show j.val + 3072 = 3 * 1024 + j.val; omega),
    e5, h5 r j]
  rfl

end Cert.KernelIdeal.PointValue

end
-- ==== Proof.WholeArrays.lean ====
/-
  From the blocks to the whole arrays.

  The grid has 32 points. At point t the windows of x, h, c and of both outputs are at rows 256·t … 256·t + 255 (block
  index (t, 0)); the packed weight matrices and the bias row are staged whole (block index (0, 0)). So the blocks the
  body reads are the rows of the argument arrays the specification reads, what point t writes back is rows 256·t … of
  the specification, the 32 row blocks cover each output array, and each output array ends holding the
  specification of the argument arrays.
-/
import proofs.«119790_j24601572671658_2_alg».proof.Proof.Gen.KernelIdeal.Value
import proofs.«119790_j24601572671658_2_alg».proof.Proof.PackedOperands
import proofs.«119790_j24601572671658_2_alg».proof.Proof.PointValue
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.GatedCell Cert.KernelIdeal.PointValue Cert.KernelIdeal.Packed

theorem hz : (![0, 0] : Fin 2 → Nat) = fun _ => 0 := funext fun a => by fin_cases a <;> rfl

/-- The block index of each window at a grid point, axis by axis. -/
structure BlockIndices (t : Fin cfg0.N) : Prop where
  w0 : win0_0.index t (0 : Fin 2) = t.val ∧ win0_0.index t (1 : Fin 2) = 0
  w1 : win0_1.index t (0 : Fin 2) = t.val ∧ win0_1.index t (1 : Fin 2) = 0
  w2 : win0_2.index t (0 : Fin 2) = t.val ∧ win0_2.index t (1 : Fin 2) = 0
  w3 : win0_3.index t (0 : Fin 2) = 0 ∧ win0_3.index t (1 : Fin 2) = 0
  w4 : win0_4.index t (0 : Fin 2) = 0 ∧ win0_4.index t (1 : Fin 2) = 0
  w5 : win0_5.index t (0 : Fin 2) = 0 ∧ win0_5.index t (1 : Fin 2) = 0
  w6 : win0_6.index t (0 : Fin 2) = t.val ∧ win0_6.index t (1 : Fin 2) = 0
  w7 : win0_7.index t (0 : Fin 2) = t.val ∧ win0_7.index t (1 : Fin 2) = 0

/-- The printed index maps, decided over the 32 grid points. -/
theorem idx_facts (t : Fin cfg0.N) : BlockIndices t :=
  have h : ∀ t : Fin cfg0.N, (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = t.val ∧ win0_2.index t (1 : Fin 2) = 0)
      ∧ (win0_3.index t (0 : Fin 2) = 0 ∧ win0_3.index t (1 : Fin 2) = 0)
      ∧ (win0_4.index t (0 : Fin 2) = 0 ∧ win0_4.index t (1 : Fin 2) = 0)
      ∧ (win0_5.index t (0 : Fin 2) = 0 ∧ win0_5.index t (1 : Fin 2) = 0)
      ∧ (win0_6.index t (0 : Fin 2) = t.val ∧ win0_6.index t (1 : Fin 2) = 0)
      ∧ (win0_7.index t (0 : Fin 2) = t.val ∧ win0_7.index t (1 : Fin 2) = 0) :=
    (by decide +kernel : ∀ t : Fin grid0.N, _)
  ⟨(h t).1, (h t).2.1, (h t).2.2.1, (h t).2.2.2.1, (h t).2.2.2.2.1, (h t).2.2.2.2.2.1, (h t).2.2.2.2.2.2.1, (h t).2.2.2.2.2.2.2⟩

variable (m : (ℓ : Loc nD τ sig) → Buf (Elt Ideal) ℓ) (ρ : Dev nD → PrngReg)

/-! ## The blocks the body reads -/

/-- Grid point t's block of x: its rows 256·t … 256·t + 255. -/
theorem rows0_apply (c : Dev nD) (t : Fin cfg0.N) (ht : t.val < 32) (r : Fin 256) (k : Fin 1024) :
    (iblk m c 0 t : Vec Ideal S256x1024 .f32) (ix2 r k)
      = ((m ((c : Thread nD τ).loc main_arg0)) : Rows) (ix2 (row t.val ht r) k) := by
  have e := idx_facts t
  have hr := r.isLt
  have hk := k.isLt
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 256 + 1 * r.val = t.val * 256 + r.val; rw [e.w0.1]; omega
  | ⟨1, _⟩ => show win0_0.index t (1 : Fin 2) * 1024 + 1 * k.val = k.val; rw [e.w0.2]; omega

/-- Grid point t's block of h: its rows 256·t … 256·t + 255. -/
theorem rows1_apply (c : Dev nD) (t : Fin cfg0.N) (ht : t.val < 32) (r : Fin 256) (k : Fin 1024) :
    (iblk m c 1 t : Vec Ideal S256x1024 .f32) (ix2 r k)
      = ((m ((c : Thread nD τ).loc main_arg1)) : Rows) (ix2 (row t.val ht r) k) := by
  have e := idx_facts t
  have hr := r.isLt
  have hk := k.isLt
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 256 + 1 * r.val = t.val * 256 + r.val; rw [e.w1.1]; omega
  | ⟨1, _⟩ => show win0_1.index t (1 : Fin 2) * 1024 + 1 * k.val = k.val; rw [e.w1.2]; omega

/-- Grid point t's block of c: its rows 256·t … 256·t + 255. -/
theorem rows2_apply (c : Dev nD) (t : Fin cfg0.N) (ht : t.val < 32) (r : Fin 256) (k : Fin 1024) :
    (iblk m c 2 t : Vec Ideal S256x1024 .f32) (ix2 r k)
      = ((m ((c : Thread nD τ).loc main_arg2)) : Rows) (ix2 (row t.val ht r) k) := by
  have e := idx_facts t
  have hr := r.isLt
  have hk := k.isLt
  unfold iblk
  rw [View.read_apply]
  show V m c main_arg2 _ = m (c.tc.loc main_arg2) _
  rw [V_main_arg2]
  congr 1
  funext a
  apply Fin.ext
  match a with
  | ⟨0, _⟩ => show win0_2.index t (0 : Fin 2) * 256 + 1 * r.val = t.val * 256 + r.val; rw [e.w2.1]; omega
  | ⟨1, _⟩ => show win0_2.index t (1 : Fin 2) * 1024 + 1 * k.val = k.val; rw [e.w2.2]; omega

/-- The packed input weight matrix is staged whole at every grid point. -/
theorem whole3_apply (c : Dev nD) (t : Fin cfg0.N) (p : Fin 1024) (q : Fin 4096) :
    (iblk m c 3 t : Vec Ideal S1024x4096 .bf16) (ix2 p q) = (V m c main_call0_v2 : S1024x4096.Idx → EReal) (ix2 p q) := by
  have e := idx_facts t
  have hp := p.isLt
  have hq := q.isLt
  unfold iblk
  rw [View.read_apply]
  show V m c main_call0_v2 _ = V m c main_call0_v2 _
  congr 1
  funext a
  apply Fin.ext
  match a with
  | ⟨0, _⟩ => show win0_3.index t (0 : Fin 2) * 1024 + 1 * p.val = p.val; rw [e.w3.1]; omega
  | ⟨1, _⟩ => show win0_3.index t (1 : Fin 2) * 4096 + 1 * q.val = q.val; rw [e.w3.2]; omega

/-- The packed recurrent weight matrix is staged whole at every grid point. -/
theorem whole4_apply (c : Dev nD) (t : Fin cfg0.N) (p : Fin 1024) (q : Fin 4096) :
    (iblk m c 4 t : Vec Ideal S1024x4096 .bf16) (ix2 p q) = (V m c main_call0_v5 : S1024x4096.Idx → EReal) (ix2 p q) := by
  have e := idx_facts t
  have hp := p.isLt
  have hq := q.isLt
  unfold iblk
  rw [View.read_apply]
  show V m c main_call0_v5 _ = V m c main_call0_v5 _
  congr 1
  funext a
  apply Fin.ext
  match a with
  | ⟨0, _⟩ => show win0_4.index t (0 : Fin 2) * 1024 + 1 * p.val = p.val; rw [e.w4.1]; omega
  | ⟨1, _⟩ => show win0_4.index t (1 : Fin 2) * 4096 + 1 * q.val = q.val; rw [e.w4.2]; omega

/-- The bias row is staged whole at every grid point. -/
theorem whole5_apply (c : Dev nD) (t : Fin cfg0.N) (p : Fin 1) (q : Fin 4096) :
    (iblk m c 5 t : Vec Ideal S1x4096 .f32) (ix2 p q) = (V m c main_call0_v9 : S1x4096.Idx → EReal) (ix2 p q) := by
  have e := idx_facts t
  have hp := p.isLt
  have hq := q.isLt
  unfold iblk
  rw [View.read_apply]
  show V m c main_call0_v9 _ = V m c main_call0_v9 _
  congr 1
  funext a
  apply Fin.ext
  match a with
  | ⟨0, _⟩ => show win0_5.index t (0 : Fin 2) * 1 + 1 * p.val = p.val; rw [e.w5.1]; omega
  | ⟨1, _⟩ => show win0_5.index t (1 : Fin 2) * 4096 + 1 * q.val = q.val; rw [e.w5.2]; omega

/-- The staged input weight matrix at (k, g·1024 + j) is W(g, j, k). -/
theorem inputWeights_apply (c : Dev nD) (t : Fin cfg0.N) (k : Fin 1024) (g : Fin 4) (j : Fin 1024) (n : Fin 4096)
    (hn : n.val = g.val * 1024 + j.val) :
    (iblk m c 3 t : Vec Ideal S1024x4096 .bf16) (ix2 k n) = ((m ((c : Thread nD τ).loc main_arg3)) : Weights) (ix3 g j k) :=
  (whole3_apply m c t k n).trans ((congrFun (inputWeights_eq m c) (ix2 k n)).trans (pack_apply _ k g j n hn))

/-- The staged recurrent weight matrix at (k, g·1024 + j) is U(g, j, k). -/
theorem recurrentWeights_apply (c : Dev nD) (t : Fin cfg0.N) (k : Fin 1024) (g : Fin 4) (j : Fin 1024) (n : Fin 4096)
    (hn : n.val = g.val * 1024 + j.val) :
    (iblk m c 4 t : Vec Ideal S1024x4096 .bf16) (ix2 k n) = ((m ((c : Thread nD τ).loc main_arg5)) : Weights) (ix3 g j k) :=
  (whole4_apply m c t k n).trans ((congrFun (recurrentWeights_eq m c) (ix2 k n)).trans (pack_apply _ k g j n hn))

/-- The staged bias row at (0, g·1024 + j) is bW(g, j) + bU(g, j). -/
theorem bias_apply (c : Dev nD) (t : Fin cfg0.N) (g : Fin 4) (j : Fin 1024) (n : Fin 4096)
    (hn : n.val = g.val * 1024 + j.val) :
    (iblk m c 5 t : Vec Ideal S1x4096 .f32) (ix2 0 n)
      = HAdd.hAdd (α := EReal) (β := EReal) (γ := EReal) (((m ((c : Thread nD τ).loc main_arg4)) : Biases) (ix2 g j))
          (((m ((c : Thread nD τ).loc main_arg6)) : Biases) (ix2 g j)) :=
  (whole5_apply m c t 0 n).trans ((congrFun (biasRow_eq m c) (ix2 0 n)).trans (biasRow_apply _ _ g j n hn))

/-! ## What each point writes back -/

/-- What grid point t writes back to the next hidden state is rows 256·t … 256·t + 255 of the next hidden state's specification. -/
theorem flushed6_eq (c : Dev nD) (t : Fin cfg0.N) :
    (dats m 0 c).flushed 6 t = ((cfg0.win 6).blk t).view.read (Elt Ideal)
      (hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : Buf (Elt Ideal) ((c : Thread nD τ).loc main_v0_0)) := by
  have ht : t.val < 32 := lt_of_lt_of_eq t.isLt N_0
  have e := idx_facts t
  rw [Value.flushed6]
  unfold out0_6
  simp only [View.ld_unit_zero (S := S256x1024) hz, View.ld_unit_zero (S := S1024x4096) hz, View.ld_unit_zero (S := S1x4096) hz]
  funext y
  obtain ⟨r, j, rfl⟩ : ∃ (r : Fin 256) (j : Fin 1024), y = ix2 r j := ⟨y 0, y 1, eq_ix2 y⟩
  have hr := r.isLt
  have hj := j.isLt
  refine (Value.canon6_eq (iblk m c 0 t) (iblk m c 1 t) (iblk m c 3 t) (iblk m c 4 t) (iblk m c 5 t) (iblk m c 2 t) (ix2 r j)).trans ?_
  refine (hidden_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (iblk m c 0 t) (iblk m c 1 t) (iblk m c 2 t) (iblk m c 3 t) (iblk m c 4 t) (iblk m c 5 t) t.val ht
    (fun r k => rows0_apply m c t ht r k) (fun r k => rows1_apply m c t ht r k) (fun r k => rows2_apply m c t ht r k)
    (fun k g j n hn => inputWeights_apply m c t k g j n hn) (fun k g j n hn => recurrentWeights_apply m c t k g j n hn)
    (fun g j n hn => bias_apply m c t g j n hn) r j).trans ?_
  rw [View.read_apply]
  show hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ = hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _
  congr 1
  funext a
  apply Fin.ext
  match a with
  | ⟨0, _⟩ => show t.val * 256 + r.val = win0_6.index t (0 : Fin 2) * 256 + 1 * r.val; rw [e.w6.1]; omega
  | ⟨1, _⟩ => show j.val = win0_6.index t (1 : Fin 2) * 1024 + 1 * j.val; rw [e.w6.2]; omega

/-- What grid point t writes back to the next cell state is rows 256·t … 256·t + 255 of the next cell state's specification. -/
theorem flushed7_eq (c : Dev nD) (t : Fin cfg0.N) :
    (dats m 0 c).flushed 7 t = ((cfg0.win 7).blk t).view.read (Elt Ideal)
      (cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : Buf (Elt Ideal) ((c : Thread nD τ).loc main_v0_2)) := by
  have ht : t.val < 32 := lt_of_lt_of_eq t.isLt N_0
  have e := idx_facts t
  rw [Value.flushed7]
  unfold out0_7
  simp only [View.ld_unit_zero (S := S256x1024) hz, View.ld_unit_zero (S := S1024x4096) hz, View.ld_unit_zero (S := S1x4096) hz]
  funext y
  obtain ⟨r, j, rfl⟩ : ∃ (r : Fin 256) (j : Fin 1024), y = ix2 r j := ⟨y 0, y 1, eq_ix2 y⟩
  have hr := r.isLt
  have hj := j.isLt
  refine (Value.canon7_eq (iblk m c 0 t) (iblk m c 1 t) (iblk m c 3 t) (iblk m c 4 t) (iblk m c 5 t) (iblk m c 2 t) (ix2 r j)).trans ?_
  refine (cell_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (iblk m c 0 t) (iblk m c 1 t) (iblk m c 2 t) (iblk m c 3 t) (iblk m c 4 t) (iblk m c 5 t) t.val ht
    (fun r k => rows0_apply m c t ht r k) (fun r k => rows1_apply m c t ht r k) (fun r k => rows2_apply m c t ht r k)
    (fun k g j n hn => inputWeights_apply m c t k g j n hn) (fun k g j n hn => recurrentWeights_apply m c t k g j n hn)
    (fun g j n hn => bias_apply m c t g j n hn) r j).trans ?_
  rw [View.read_apply]
  show cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ = cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _
  congr 1
  funext a
  apply Fin.ext
  match a with
  | ⟨0, _⟩ => show t.val * 256 + r.val = win0_7.index t (0 : Fin 2) * 256 + 1 * r.val; rw [e.w7.1]; omega
  | ⟨1, _⟩ => show j.val = win0_7.index t (1 : Fin 2) * 1024 + 1 * j.val; rw [e.w7.2]; omega

/-! ## The row blocks cover the arrays -/

/-- An index of the array is in grid point t's block iff each coordinate is in the block's range on its axis. -/
theorem mem_blk6 (t : Fin cfg0.N) (i : S8192x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v0_0).slice (win0_6.rect t)).set ↔ _
  rw [View.set_slice_whole, Rect.mem_set_unit]
  exact Iff.rfl

/-- Every row b lies in the block of grid point b / 256, which is written back. -/
theorem cover6 (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 32 := N_0
  have hlt : (i 0).val / 256 < cfg0.N := by rw [hN]; omega
  have e := idx_facts ⟨(i 0).val / 256, hlt⟩
  refine ⟨⟨(i 0).val / 256, hlt⟩, flush0_6 _, ?_⟩
  rw [mem_blk6]
  intro a
  match a with
  | ⟨0, _⟩ =>
    show win0_6.index ⟨(i 0).val / 256, hlt⟩ (0 : Fin 2) * 256 ≤ (i 0).val
      ∧ (i 0).val < win0_6.index ⟨(i 0).val / 256, hlt⟩ (0 : Fin 2) * 256 + 256
    rw [e.w6.1]
    show (i 0).val / 256 * 256 ≤ (i 0).val ∧ (i 0).val < (i 0).val / 256 * 256 + 256
    omega
  | ⟨1, _⟩ =>
    show win0_6.index ⟨(i 0).val / 256, hlt⟩ (1 : Fin 2) * 1024 ≤ (i 1).val
      ∧ (i 1).val < win0_6.index ⟨(i 0).val / 256, hlt⟩ (1 : Fin 2) * 1024 + 1024
    rw [e.w6.2]
    omega

/-- An index of the array is in grid point t's block iff each coordinate is in the block's range on its axis. -/
theorem mem_blk7 (t : Fin cfg0.N) (i : S8192x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v0_2).slice (win0_7.rect t)).set ↔ _
  rw [View.set_slice_whole, Rect.mem_set_unit]
  exact Iff.rfl

/-- Every row b lies in the block of grid point b / 256, which is written back. -/
theorem cover7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 32 := N_0
  have hlt : (i 0).val / 256 < cfg0.N := by rw [hN]; omega
  have e := idx_facts ⟨(i 0).val / 256, hlt⟩
  refine ⟨⟨(i 0).val / 256, hlt⟩, flush0_7 _, ?_⟩
  rw [mem_blk7]
  intro a
  match a with
  | ⟨0, _⟩ =>
    show win0_7.index ⟨(i 0).val / 256, hlt⟩ (0 : Fin 2) * 256 ≤ (i 0).val
      ∧ (i 0).val < win0_7.index ⟨(i 0).val / 256, hlt⟩ (0 : Fin 2) * 256 + 256
    rw [e.w7.1]
    show (i 0).val / 256 * 256 ≤ (i 0).val ∧ (i 0).val < (i 0).val / 256 * 256 + 256
    omega
  | ⟨1, _⟩ =>
    show win0_7.index ⟨(i 0).val / 256, hlt⟩ (1 : Fin 2) * 1024 ≤ (i 1).val
      ∧ (i 1).val < win0_7.index ⟨(i 0).val / 256, hlt⟩ (1 : Fin 2) * 1024 + 1024
    rw [e.w7.2]
    omega

/-! ## The arrays after the run -/

/-- The first output array ends holding the next hidden state. -/
theorem final_hidden (c : Dev nD) : (dats m 0 c).arrAt 6 cfg0.N = hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 6 _ (fun t _ => flushed6_eq m c t) cover6

/-- The second output array ends holding the next cell state. -/
theorem final_cell (c : Dev nD) : (dats m 0 c).arrAt 7 cfg0.N = cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushed7_eq m c t) cover7

/-- The kernel program's run: every weakly fair execution terminates, the two output arrays at the cell's next hidden
    and cell states of the argument arrays, the argument arrays unchanged. -/
theorem run : θ_run defs (onTc (τ := τ) (main (F := Ideal))) ⟨m, fun _ => 0, ρ⟩ fun r => ∀ c : Dev nD,
      r.2.mem ((c : Thread nD τ).loc main_v0_0) = hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) = cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (Value.run_blocks m ρ)

end Cert.KernelIdeal.Whole

end
-- ==== Proof.lean ====
/-
  A gated recurrent cell computed by a tiled kernel equals its plain array reference on the extended reals.

  Both programs take x, h, c of shape [8192, 1024], two [4, 1024, 1024] weight stacks W, U and two [4, 1024] bias stacks
  bW, bU, and return (h', h', c') with

      a(g, b, j) = pre-activation of gate g,   c' = σ(a₁) · c + σ(a₀) · tanh(a₃),   h' = σ(a₂) · tanh(c').

  The kernel packs W and U into [1024, 4096] matrices and the biases into one [1, 4096] row on the host, and at each of 32
  grid points computes 256 rows: (x-block · Wt + h-block · Ut) + bias row, cut into the four gates. The reference computes
  (W · x + bW) + (U · h + bU) for all gates at once and spells σ as 1 / (1 + e^(-a)). Index by index both are the
  specification of CellSpec: the two groupings of the pre-activation agree by commutativity and associativity of + and
  commutativity of ·, which hold on all extended reals, so finiteness of the inputs is never used; the logistic function
  is by definition that quotient; casts between float formats are the identity.

  The three frames are the generated ones (the reference's is its generated run with the results dropped); the kernel was
  idealized with no rewrite, so there is nothing to preserve.
-/
import proofs.«119790_j24601572671658_2_alg».proof.Defs
import proofs.«119790_j24601572671658_2_alg».proof.Proof.Gen.Kernel
import proofs.«119790_j24601572671658_2_alg».proof.Proof.Gen.Kernel.Skeleton
import proofs.«119790_j24601572671658_2_alg».proof.Proof.Gen.Kernel.Launch
import proofs.«119790_j24601572671658_2_alg».proof.Proof.Gen.Kernel.Points
import proofs.«119790_j24601572671658_2_alg».proof.Proof.Gen.Kernel.Frame
import proofs.«119790_j24601572671658_2_alg».proof.Proof.Gen.KernelIdeal
import proofs.«119790_j24601572671658_2_alg».proof.Proof.Gen.KernelIdeal.Skeleton
import proofs.«119790_j24601572671658_2_alg».proof.Proof.Gen.KernelIdeal.Launch
import proofs.«119790_j24601572671658_2_alg».proof.Proof.Gen.KernelIdeal.Points
import proofs.«119790_j24601572671658_2_alg».proof.Proof.Gen.KernelIdeal.Frame
import proofs.«119790_j24601572671658_2_alg».proof.Proof.Gen.ReferenceIdeal
import proofs.«119790_j24601572671658_2_alg».proof.Proof.Gen.Pre_finite_inputs
import proofs.«119790_j24601572671658_2_alg».proof.Proof.Gen.KernelIdeal.Value
import proofs.«119790_j24601572671658_2_alg».proof.Proof.Gen.ReferenceIdeal.Run
import proofs.«119790_j24601572671658_2_alg».proof.Proof.Gen.ReferenceIdeal.Read
import proofs.«119790_j24601572671658_2_alg».proof.Proof.CellSpec
import proofs.«119790_j24601572671658_2_alg».proof.Proof.ReferenceCell
import proofs.«119790_j24601572671658_2_alg».proof.Proof.WholeArrays
import Idealize.ShloMosaic.Adequacy
import Idealize.ShloMosaic.Init

noncomputable section

namespace Cert.Proof

open Idealize.ShloMosaic Idealize.ShloMosaic.TcCoe Idealize.SL.Sem Cert.GatedCell

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- The ideal pass rewrote nothing in the kernel. -/
theorem preserves : Cert.preserves_Kernel_KernelIdeal := trivial

/-- Both idealized programs end with (h', h', c') of the same argument arrays. -/
theorem algebraic : Cert.algebraic_KernelIdeal_ReferenceIdeal := by
  intro m ρ m' ρ' _ hagree
  refine ⟨fun c => hiddenNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => hiddenNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => cellNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1, (h c).1, (h c).2.1, (h c).2.2⟩)
      (Cert.KernelIdeal.Whole.run m ρ)
  · refine (θ_run Cert.ReferenceIdeal.defs _ _).mono (fun r h c => ?_) (Cert.ReferenceIdeal.Value.run (F := Ideal) m' ρ')
    obtain ⟨a0, a1, a2, a3, a4, a5, a6⟩ := hagree c
    have hh : Cert.ReferenceIdeal.Value.res_main_v42 m' c = hiddenNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
      rw [Cert.ReferenceIdeal.Read.val_main_v42_eq, Cert.ReferenceIdeal.CellValue.hidden_eq, a0, a1, a2, a3, a4, a5, a6]
    have hc : Cert.ReferenceIdeal.Read.val_main_v40 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = cellNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
      rw [Cert.ReferenceIdeal.CellValue.cell_eq, a0, a1, a2, a3, a4, a5, a6]
    exact ⟨(h c).1.trans hh, (h c).2.1.trans hh,
      (h c).2.2.1.trans ((Cert.ReferenceIdeal.Read.val_main_v40_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans hc), (h c).2.2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
